-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S16x8 .f32) (main_arg5 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x8 .f32 := Host.absf main_arg4
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x16 .f32) (main_arg3 : FVec F S16 .f32) (main_arg4 : FVec F S16x8 .f32) (main_arg5 : FVec F S8 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x16 : Shape := ⟨2, ![1, 16]⟩
abbrev S1x8 : Shape := ⟨2, ![1, 8]⟩
abbrev S10000x16 : Shape := ⟨2, ![10000, 16]⟩
abbrev S10000x8 : Shape := ⟨2, ![10000, 8]⟩
abbrev S400x10000 : Shape := ⟨2, ![400, 10000]⟩
abbrev S400x8 : Shape := ⟨2, ![400, 8]⟩
abbrev S400x16 : Shape := ⟨2, ![400, 16]⟩

abbrev nBuf : Space → Nat
  | .hbm => 11
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S1x16, .f32⟩
  | .hbm, ⟨7, _⟩ => ⟨S1x8, .f32⟩
  | .hbm, ⟨8, _⟩ => ⟨S10000x16, .f32⟩
  | .hbm, ⟨9, _⟩ => ⟨S10000x8, .f32⟩
  | .hbm, ⟨10, _⟩ => ⟨S10000x8, .f32⟩
  | .local _ .vmem, ⟨0, _⟩ => ⟨S10000x128, .f32⟩
  | .local _ .vmem, ⟨1, _⟩ => ⟨S128x16, .f32⟩
  | .local _ .vmem, ⟨2, _⟩ => ⟨S10000x16, .f32⟩
  | .local _ .vmem, ⟨3, _⟩ => ⟨S400x10000, .f32⟩
  | .local _ .vmem, ⟨4, _⟩ => ⟨S400x10000, .f32⟩
  | .local _ .vmem, ⟨5, _⟩ => ⟨S10000x16, .f32⟩
  | .local _ .vmem, ⟨6, _⟩ => ⟨S1x16, .f32⟩
  | .local _ .vmem, ⟨7, _⟩ => ⟨S16x8, .f32⟩
  | .local _ .vmem, ⟨8, _⟩ => ⟨S400x8, .f32⟩
  | .local _ .vmem, ⟨9, _⟩ => ⟨S400x8, .f32⟩
  | .local _ .vmem, ⟨10, _⟩ => ⟨S400x10000, .f32⟩
  | .local _ .vmem, ⟨11, _⟩ => ⟨S400x10000, .f32⟩
  | .local _ .vmem, ⟨12, _⟩ => ⟨S10000x8, .f32⟩
  | .local _ .vmem, ⟨13, _⟩ => ⟨S1x8, .f32⟩
  | .local _ .vmem, ⟨14, _⟩ => ⟨S400x8, .f32⟩
  | .local _ .vmem, ⟨15, _⟩ => ⟨S400x8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S16_S1x16 : S16.ShapeCasts S1x16
  shapeCasts_S8_S1x8 : S8.ShapeCasts S1x8
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  inb_S400x10000_S400x10000_0_0 : ∀ a, (![0, 0] : Fin 2 → Nat) a + S400x10000.size a ≤ S400x10000.size a
  h_S400x10000 : 0 < S400x10000.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x8_S16x8_0_0 : ∀ a, (![0, 0] : Fin 2 → Nat) a + S16x8.size a ≤ S16x8.size a
  h_S16x8 : 0 < S16x8.numel
  inb_S400x8_S400x8_0_0 : ∀ a, (![0, 0] : Fin 2 → Nat) a + S400x8.size a ≤ S400x8.size a
  h_S400x8 : 0 < S400x8.numel
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S400x8 : S1x8.Broadcasts S400x8
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x8_S400x8_1_0_0_1_n_n_wf : DotDims.WF S400x16 S16x8 S400x8 [1] [0] [0] [1] [] []
  dot_S400x10000_S10000x8_S400x8_1_0_0_1_n_n_wf : DotDims.WF S400x10000 S10000x8 S400x8 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x8.size a ≤ S16x8.size a
  hwx1_3 : ∀ i : grid1.Coords, EltTy.bits .f32 = 32 ∨ (Rect.block (s := S16x8) S16x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x8.size a ≤ S10000x8.size a
  hwx1_4 : ∀ i : grid1.Coords, EltTy.bits .f32 = 32 ∨ (Rect.block (s := S10000x8) S400x8.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x8.size a ≤ S10000x8.size a
  hwx2_1 : ∀ i : grid2.Coords, EltTy.bits .f32 = 32 ∨ (Rect.block (s := S10000x8) S10000x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x8.size a ≤ S10000x8.size a
  hwx2_3 : ∀ i : grid2.Coords, EltTy.bits .f32 = 32 ∨ (Rect.block (s := S10000x8) S400x8.size (cc2_transform_3 i) (hinb2_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x8_S400x8_1_0_0_1_n_n : DotDims S400x16 S16x8 S400x8 where
  lhsContracting := [1]
  rhsContracting := [0]
  lhsNonContracting := [0]
  rhsNonContracting := [1]
  lhsBatch := []
  rhsBatch := []
  wf := dot_S400x16_S16x8_S400x8_1_0_0_1_n_n_wf
def dot_S400x10000_S10000x8_S400x8_1_0_0_1_n_n : DotDims S400x10000 S10000x8 S400x8 where
  lhsContracting := [1]
  rhsContracting := [0]
  lhsNonContracting := [0]
  rhsNonContracting := [1]
  lhsBatch := []
  rhsBatch := []
  wf := dot_S400x10000_S10000x8_S400x8_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S400x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v3) S10000x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v1) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S400x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S10000x16 : Shape := ⟨2, ![10000, 16]⟩
abbrev S1x16 : Shape := ⟨2, ![1, 16]⟩
abbrev S_ : Shape := ⟨0, ![]⟩
abbrev S10000x8 : Shape := ⟨2, ![10000, 8]⟩
abbrev S1x8 : Shape := ⟨2, ![1, 8]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x8, .f32⟩
  | .hbm, ⟨15, _⟩ => ⟨S10000x8, .f32⟩
  | .hbm, ⟨16, _⟩ => ⟨S1x8, .f32⟩
  | .hbm, ⟨17, _⟩ => ⟨S10000x8, .f32⟩
  | .hbm, ⟨18, _⟩ => ⟨S10000x8, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x8_S10000x8_1_0_0_1_n_n_wf : DotDims.WF S10000x16 S16x8 S10000x8 [1] [0] [0] [1] [] []
  dot_S10000x10000_S10000x8_S10000x8_1_0_0_1_n_n_wf : DotDims.WF S10000x10000 S10000x8 S10000x8 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def dot_S10000x10000_S10000x8_S10000x8_1_0_0_1_n_n : DotDims S10000x10000 S10000x8 S10000x8 where
  lhsContracting := [1]
  rhsContracting := [0]
  lhsNonContracting := [0]
  rhsNonContracting := [1]
  lhsBatch := []
  rhsBatch := []
  wf := dot_S10000x10000_S10000x8_S10000x8_1_0_0_1_n_n_wf

class Facts : Prop extends Facts₀ where

variable [Facts]
-- ==== Proof.KernelRun.lean ====
/-
  The idealized kernel's run, with every buffer named.

  The program is three kernel launches after two host reshapes. Following the run through its four segments, the
  contents of every buffer that outlives the launches are known at each boundary: after the reshapes (`W1`), after the
  first product (`W2`), after the hidden layer and its projection (`W3`), and after the last product (`W4`). This module
  states the run once in its general form: every weakly fair execution terminates, without a fault, and in the final
  state every such buffer holds its `W4` contents. The result array and the six argument arrays are among them.
-/
import proofs.«127033_g25056839205778_cont_8to1_588_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that is not a
    launch's private staging storage ends at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array after the run. -/
theorem result_at (r : PUnit × MemSt nD τ sig (Elt F))
    (h : ∀ c : Dev nD, ∀ b ∈ Pipeline.ucRefs τ sig, r.2.mem (((c : Thread nD τ)).1, b) = W4 m ρ c b) (c : Dev nD) :
    r.2.mem ((c.tc : Thread nD τ).loc main_v0) = W4 m ρ c (Proc.devRef .tc main_v0) :=
  h c _ (mem_uc main_v0 (by decide))

end Cert.KernelIdeal.Named

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.Spec.lean ====
/-
  A two-layer graph convolution as one function of its six arrays, over the extended reals.

  With `x : [n, f]` the node features, `adj : [n, n]` the dense adjacency, `W1 : [f, h]`, `b1 : [h]`, `W2 : [h, c]`
  and `b2 : [c]`, the network is

      out = adj · (relu (adj · (x · W1) + b1) · W2) + b2 .

  Every product is a plain matrix product, `(a · w) (p, q) = ∑ k, a (p, k) * w (k, q)`; a bias is added to every row;
  `relu` is the maximum with zero. Addition of extended reals is commutative and associative, so a sum over `k` has
  one value whatever its order or blocking: a product computed a block of rows at a time is the same array as the
  product computed at once. Nothing here distributes a product over a sum, so no entry needs to be finite.
-/
import Idealize.ShloMosaic.PureOps.Ideal
import Idealize.ShloMosaic.Lib.ValueIdx
import proofs.«127033_g25056839205778_cont_8to1_588_2_alg».proof.Proof.LibDense

noncomputable section

namespace Cert.Gcn

open Idealize.ShloMosaic Idealize.ShloMosaic.ValueIdx Idealize.ShloMosaic.DenseLayer

/-- The matrix product of an `M×K` array with a `K×N` array, entry by entry. -/
def prod {M K N : ℕ} (a : (⟨2, ![M, K]⟩ : Shape).Idx → EReal) (w : (⟨2, ![K, N]⟩ : Shape).Idx → EReal) :
    (⟨2, ![M, N]⟩ : Shape).Idx → EReal := fun i =>
  ∑ k : Fin K, a (ix2 (i 0) k) * w (ix2 k (i 1))

/-- `a · w` plus a bias given as a `[1, N]` row: entry `(p, q)` is `(∑ k, a (p, k) * w (k, q)) + row (0, q)`. -/
def affineRow {M K N : ℕ} (a : (⟨2, ![M, K]⟩ : Shape).Idx → EReal) (w : (⟨2, ![K, N]⟩ : Shape).Idx → EReal)
    (row : (⟨2, ![1, N]⟩ : Shape).Idx → EReal) : (⟨2, ![M, N]⟩ : Shape).Idx → EReal := fun i =>
  (∑ k : Fin K, a (ix2 (i 0) k) * w (ix2 k (i 1))) + row (ix2 (0 : Fin 1) (i 1))

/-- The hidden layer already projected: `relu (a · s + row) · w2`, entry by entry. -/
def hiddenProj {M K H N : ℕ} (a : (⟨2, ![M, K]⟩ : Shape).Idx → EReal) (s : (⟨2, ![K, H]⟩ : Shape).Idx → EReal)
    (row : (⟨2, ![1, H]⟩ : Shape).Idx → EReal) (w2 : (⟨2, ![H, N]⟩ : Shape).Idx → EReal) :
    (⟨2, ![M, N]⟩ : Shape).Idx → EReal := fun i =>
  ∑ j : Fin H, max (affineRow a s row (ix2 (i 0) j)) zeroWord * w2 (ix2 j (i 1))

/-- A vector laid out as one row. -/
def rowOf {N : ℕ} (b : (⟨1, ![N]⟩ : Shape).Idx → EReal) : (⟨2, ![1, N]⟩ : Shape).Idx → EReal := fun i => b (ix1 (i 1))

/-- The two-layer network: `adj · (relu (adj · (x · W1) + b1) · W2) + b2`. -/
def gcn {n f h c : ℕ} (x : (⟨2, ![n, f]⟩ : Shape).Idx → EReal) (adj : (⟨2, ![n, n]⟩ : Shape).Idx → EReal)
    (W1 : (⟨2, ![f, h]⟩ : Shape).Idx → EReal) (b1 : (⟨1, ![h]⟩ : Shape).Idx → EReal)
    (W2 : (⟨2, ![h, c]⟩ : Shape).Idx → EReal) (b2 : (⟨1, ![c]⟩ : Shape).Idx → EReal) :
    (⟨2, ![n, c]⟩ : Shape).Idx → EReal :=
  affineRow adj (hiddenProj adj (prod x W1) (rowOf b1) W2) (rowOf b2)

theorem prod_apply {M K N : ℕ} (a : (⟨2, ![M, K]⟩ : Shape).Idx → EReal) (w : (⟨2, ![K, N]⟩ : Shape).Idx → EReal)
    (p : Fin M) (q : Fin N) : prod a w (ix2 p q) = ∑ k : Fin K, a (ix2 p k) * w (ix2 k q) := rfl

theorem affineRow_apply {M K N : ℕ} (a : (⟨2, ![M, K]⟩ : Shape).Idx → EReal) (w : (⟨2, ![K, N]⟩ : Shape).Idx → EReal)
    (row : (⟨2, ![1, N]⟩ : Shape).Idx → EReal) (p : Fin M) (q : Fin N) :
    affineRow a w row (ix2 p q) = (∑ k : Fin K, a (ix2 p k) * w (ix2 k q)) + row (ix2 (0 : Fin 1) q) := rfl

theorem hiddenProj_apply {M K H N : ℕ} (a : (⟨2, ![M, K]⟩ : Shape).Idx → EReal) (s : (⟨2, ![K, H]⟩ : Shape).Idx → EReal)
    (row : (⟨2, ![1, H]⟩ : Shape).Idx → EReal) (w2 : (⟨2, ![H, N]⟩ : Shape).Idx → EReal) (p : Fin M) (q : Fin N) :
    hiddenProj a s row w2 (ix2 p q)
      = ∑ j : Fin H, max ((∑ k : Fin K, a (ix2 p k) * s (ix2 k j)) + row (ix2 (0 : Fin 1) j)) zeroWord * w2 (ix2 j q) := rfl

theorem rowOf_apply {N : ℕ} (b : (⟨1, ![N]⟩ : Shape).Idx → EReal) (u : Fin 1) (q : Fin N) :
    rowOf b (ix2 u q) = b (ix1 q) := rfl

end Cert.Gcn

end
-- ==== Proof.Payloads.lean ====
/-
  What each of the three kernel bodies computes, entry by entry, over the extended reals.

  Each body reads whole blocks and stores one value. The first stores the product of its two blocks. The second
  stores `relu (a · s + row) · w2`: a product into a zero accumulator, the bias row spread over the block's rows and
  added, the maximum with zero, and a second product. The third stores `a · s + row`. A product into the zero
  accumulator is the plain sum over the contracted coordinate; a row spread over the rows of a block reads, at
  `(p, q)`, the row at `(0, q)`.
-/
import Idealize.ShloMosaic.Lib.ValueLayout
import Idealize.ShloMosaic.Lib.Pipeline.Value
import proofs.«127033_g25056839205778_cont_8to1_588_2_alg».proof.Proof.Gen.KernelIdeal.Skeleton
import proofs.«127033_g25056839205778_cont_8to1_588_2_alg».proof.Proof.LibPlainDot
import proofs.«127033_g25056839205778_cont_8to1_588_2_alg».proof.Proof.Spec

noncomputable section

namespace Cert.Gcn

open Cert.KernelIdeal Cert.KernelIdeal.Gen
open Idealize.ShloMosaic Idealize.ShloMosaic.ValueIdx Idealize.ShloMosaic.DenseLayer

/-- The first body's stored value is the product of its two blocks. -/
theorem pay0_at (v0 : Vec Ideal S10000x128 .f32) (v1 : Vec Ideal S128x16 .f32) (p : Fin 10000) (q : Fin 16) :
    k0_pay1 (F := Ideal) v0 v1 (ix2 p q) = prod v0 v1 (ix2 p q) :=
  PlainDot.matmul_zero_apply dot_S10000x128_S128x16_S10000x16_1_0_0_1_n_n rfl none v0 v1 p q

/-- A `[1, N]` row spread over `M` rows reads the row at `(0, q)`. -/
theorem spreadRow_apply {M N : ℕ} (row : (⟨2, ![1, N]⟩ : Shape).Idx → EReal)
    (h1 : (⟨2, ![1, N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ row h1) h2 (ix2 p q) = row (ix2 (0 : Fin 1) q) := by
  rw [broadcastTo_1b_ab_apply, shapeCast_self]

/-- The second body's stored value: `relu (a · s + row) · w2` of its four blocks. -/
theorem pay1_at (v0 : Vec Ideal S400x10000 .f32) (v1 : Vec Ideal S10000x16 .f32) (v4 : Vec Ideal S1x16 .f32)
    (v10 : Vec Ideal S16x8 .f32) (p : Fin 400) (q : Fin 8) :
    k1_pay1 (F := Ideal) v0 v1 v4 v10 (ix2 p q) = hiddenProj v0 v1 v4 v10 (ix2 p q) := by
  refine (PlainDot.matmul_zero_apply dot_S400x16_S16x8_S400x8_1_0_0_1_n_n rfl none _ v10 p q).trans ?_
  refine Finset.sum_congr rfl fun j _ => ?_
  refine congrArg (· * v10 (ix2 j q)) ?_
  refine congrArg (max · zeroWord) ?_
  refine congrArg₂ (· + ·) ?_ ?_
  · refine (PlainDot.matmul_zero_apply dot_S400x10000_S10000x16_S400x16_1_0_0_1_n_n rfl none v0 _ p j).trans ?_
    refine Finset.sum_congr rfl fun k _ => ?_
    rw [shapeCast_self]
  · exact spreadRow_apply v4 shapeCasts_S1x16_S1x16 broadcasts_S1x16_S400x16 p j

/-- The third body's stored value: `a · s + row` of its three blocks. -/
theorem pay2_at (v0 : Vec Ideal S400x10000 .f32) (v1 : Vec Ideal S10000x8 .f32) (v4 : Vec Ideal S1x8 .f32)
    (p : Fin 400) (q : Fin 8) :
    k2_pay1 (F := Ideal) v0 v1 v4 (ix2 p q) = affineRow v0 v1 v4 (ix2 p q) := by
  refine congrArg₂ (· + ·) ?_ ?_
  · refine (PlainDot.matmul_zero_apply dot_S400x10000_S10000x8_S400x8_1_0_0_1_n_n rfl none v0 _ p q).trans ?_
    refine Finset.sum_congr rfl fun k _ => ?_
    rw [shapeCast_self]
  · exact spreadRow_apply v4 shapeCasts_S1x8_S1x8 broadcasts_S1x8_S400x8 p q

end Cert.Gcn

end
-- ==== Proof.Region0.lean ====
/-
  The first launch: `x · W1`, in one piece.

  The launch has no grid: its one point sees the whole of `x` and the whole of `W1` and writes the whole result. So
  after the launch the result array is the product of the two arrays it was entered with. Stated for arbitrary
  contents `V` of the buffers at the launch's entry.
-/
import Idealize.ShloMosaic.Lib.Pipeline.Value
import proofs.«127033_g25056839205778_cont_8to1_588_2_alg».proof.Proof.Gen.KernelIdeal.Frame
import proofs.«127033_g25056839205778_cont_8to1_588_2_alg».proof.Proof.Payloads

set_option maxRecDepth 16384

noncomputable section

namespace Cert.Gcn.Features

open Cert.KernelIdeal Cert.KernelIdeal.Gen Cert.Gcn
open Idealize.ShloMosaic Idealize.ShloMosaic.TcCoe Idealize.SL.Sem Idealize.ShloMosaic.ValueIdx
open Idealize.ShloMosaic.Pipeline (Dat)

theorem origin : (![0, 0] : Fin 2 → Nat) = fun _ => 0 := funext fun a => by fin_cases a <;> rfl

/-- The one block, over plain arrays: the body's value at `y` is the product at the same entry. -/
theorem block_eq (A : S10000x128.Idx → EReal) (B : S128x16.Idx → EReal)
    (b0 : S10000x128.Idx → EReal) (b1 : S128x16.Idx → EReal) (h0 : b0 = A) (h1 : b1 = B)
    (y : S10000x16.Idx) (i : S10000x16.Idx) (hi0 : (i 0).val = (y 0).val) (hi1 : (i 1).val = (y 1).val) :
    k0_pay1 (F := Ideal) b0 b1 y = prod A B i := by
  subst h0 h1
  obtain ⟨p, q, rfl⟩ : ∃ (p : Fin 10000) (q : Fin 16), y = ix2 p q := ⟨y 0, y 1, eq_ix2 y⟩
  have hi : i = ix2 p q := by
    funext a; apply Fin.ext
    match a with
    | ⟨0, _⟩ => exact hi0
    | ⟨1, _⟩ => exact hi1
  rw [hi, pay0_at]

variable (V : (c : Dev nD) → (b : Ref sig .tc) → Buf (Elt Ideal) ((c : Thread nD τ).loc b))

/-- Every window sits at block 0 at the one point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The two input blocks are whole arrays. -/
theorem read_x (c : Dev nD) (t : Fin cfg0.N) : iblk0 V c 0 t = V c main_arg0 := by
  obtain ⟨e0, e1, -⟩ := idx_facts t
  funext y
  show V c main_arg0 (((cfg0.win 0).blk t).view.emb y) = _
  refine congrArg (V c main_arg0) ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem read_w1 (c : Dev nD) (t : Fin cfg0.N) : iblk0 V c 1 t = V c main_arg2 := by
  obtain ⟨-, -, e2, e3, -⟩ := idx_facts t
  funext y
  show V c main_arg2 (((cfg0.win 1).blk t).view.emb y) = _
  refine congrArg (V c main_arg2) ?_
  funext a; apply Fin.ext
  match a with
  | ⟨0, _⟩ => show win0_1.index t (0 : Fin 2) * 128 + 1 * (y 0).val = (y 0).val; omega
  | ⟨1, _⟩ => show win0_1.index t (1 : Fin 2) * 16 + 1 * (y 1).val = (y 1).val; omega

/-- What the point writes back is (the whole of) the product of the arrays as the launch finds them. -/
theorem flushed_eq (c : Dev nD) (t : Fin cfg0.N) :
    (dat0 V c).flushed 2 t = ((cfg0.win 2).blk t).view.read (Elt Ideal)
      (prod (V c main_arg0 : S10000x128.Idx → EReal) (V c main_arg2 : S128x16.Idx → EReal)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x16) origin]
  obtain ⟨-, -, -, -, e4, e5⟩ := idx_facts t
  funext j
  show k0_pay1 (F := Ideal) (iblk0 V c 0 t) (iblk0 V c 1 t) j
    = prod (V c main_arg0 : S10000x128.Idx → EReal) (V c main_arg2 : S128x16.Idx → EReal) (((cfg0.win 2).blk t).view.emb j)
  exact block_eq (V c main_arg0) (V c main_arg2) (iblk0 V c 0 t) (iblk0 V c 1 t) (read_x V c t) (read_w1 V c t)
    j (((cfg0.win 2).blk t).view.emb j)
    (by show win0_2.index t (0 : Fin 2) * 10000 + 1 * (j 0).val = (j 0).val; omega)
    (by show win0_2.index t (1 : Fin 2) * 16 + 1 * (j 1).val = (j 1).val; omega)

/-- An index of the result array lies in the point's block iff each coordinate lies in the block's range. -/
theorem mem_blk (t : Fin cfg0.N) (i : S10000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_call0_v2).slice (win0_2.rect t)).set ↔ _
  rw [View.set_slice_whole, Rect.mem_set_unit]
  exact Iff.rfl

/-- The one block is the whole array. -/
theorem cover (i : S10000x16.Idx) :
    ∃ t : Fin cfg0.N, (cfg0.win 2).flush t = true ∧ i ∈ ((cfg0.win 2).blk t).view.set := by
  have hi0 : (i 0).val < 10000 := (i 0).isLt
  have hi1 : (i 1).val < 16 := (i 1).isLt
  obtain ⟨-, -, -, -, e4, e5⟩ := idx_facts t0_0
  refine ⟨t0_0, flush0_2 _, ?_⟩
  rw [mem_blk]
  intro a
  match a with
  | ⟨0, _⟩ =>
    show win0_2.index t0_0 (0 : Fin 2) * 10000 ≤ (i 0).val ∧ (i 0).val < win0_2.index t0_0 (0 : Fin 2) * 10000 + 10000
    omega
  | ⟨1, _⟩ =>
    show win0_2.index t0_0 (1 : Fin 2) * 16 ≤ (i 1).val ∧ (i 1).val < win0_2.index t0_0 (1 : Fin 2) * 16 + 16
    omega

/-- After the launch its result array is `x · W1` of the arrays it was entered with. -/
theorem final (c : Dev nD) :
    (dat0 V c).arrAt 2 cfg0.N = prod (V c main_arg0 : S10000x128.Idx → EReal) (V c main_arg2 : S128x16.Idx → EReal) :=
  (dat0 V c).arrAt_eq_of_cover 2 _ (fun t _ => flushed_eq V c t) cover

end Cert.Gcn.Features

end
-- ==== Proof.Region1.lean ====
/-
  The second launch: the projected hidden layer, a block of 400 rows at a time.

  The launch has 25 grid points. At point `t` the body sees rows `400 t … 400 t + 399` of `adj` (all 10000 columns),
  the whole of the first product `s`, the bias row and `W2`, and writes rows `400 t … 400 t + 399` of the result. Row
  `r` of `relu (adj · s + row) · W2` depends only on row `r` of `adj`, so what point `t` writes is its block of the one
  array `hiddenProj adj s row W2`; the 25 blocks tile the 10000 rows (row `r` lies in block `r / 400`), so after the
  launch the result array is that array. Everything is stated for arbitrary contents `V` of the buffers at the
  launch's entry.
-/
import Idealize.ShloMosaic.Lib.Pipeline.Value
import proofs.«127033_g25056839205778_cont_8to1_588_2_alg».proof.Proof.Gen.KernelIdeal.Frame
import proofs.«127033_g25056839205778_cont_8to1_588_2_alg».proof.Proof.Payloads

set_option maxRecDepth 16384

noncomputable section

namespace Cert.Gcn.Hidden

open Cert.KernelIdeal Cert.KernelIdeal.Gen Cert.Gcn
open Idealize.ShloMosaic Idealize.ShloMosaic.TcCoe Idealize.SL.Sem Idealize.ShloMosaic.ValueIdx Idealize.ShloMosaic.DenseLayer
open Idealize.ShloMosaic.Pipeline (Dat)

theorem origin : (![0, 0] : Fin 2 → Nat) = fun _ => 0 := funext fun a => by fin_cases a <;> rfl

/-- One block, over plain arrays: if `b0` is rows `400 r …` of `A` and the other three blocks are whole arrays, the
    body's value at `y` is `hiddenProj A S R W` at the entry `400 r` rows further down. -/
theorem block_eq (A : S10000x10000.Idx → EReal) (S : S10000x16.Idx → EReal) (R : S1x16.Idx → EReal) (W : S16x8.Idx → EReal)
    (b0 : S400x10000.Idx → EReal) (b1 : S10000x16.Idx → EReal) (b2 : S1x16.Idx → EReal) (b3 : S16x8.Idx → EReal)
    (r : ℕ) (hr : r * 400 + 400 ≤ 10000)
    (h0 : ∀ (p : Fin 400) (k : Fin 10000), b0 (ix2 p k) = A (ix2 ⟨r * 400 + p.val, by have := p.isLt; omega⟩ k))
    (h1 : b1 = S) (h2 : b2 = R) (h3 : b3 = W)
    (y : S400x8.Idx) (i : S10000x8.Idx) (hi0 : (i 0).val = r * 400 + (y 0).val) (hi1 : (i 1).val = (y 1).val) :
    k1_pay1 (F := Ideal) b0 b1 b2 b3 y = hiddenProj A S R W i := by
  subst h1 h2 h3
  obtain ⟨p, q, rfl⟩ : ∃ (p : Fin 400) (q : Fin 8), y = ix2 p q := ⟨y 0, y 1, eq_ix2 y⟩
  have hi : i = ix2 (⟨r * 400 + p.val, by have := p.isLt; omega⟩ : Fin 10000) q := by
    funext a; apply Fin.ext
    match a with
    | ⟨0, _⟩ => exact hi0
    | ⟨1, _⟩ => exact hi1
  rw [hi, pay1_at, hiddenProj_apply, hiddenProj_apply]
  refine Finset.sum_congr rfl fun j _ => ?_
  refine congrArg (· * b3 (ix2 j q)) ?_
  refine congrArg (max · zeroWord) ?_
  refine congrArg (· + b2 (ix2 (0 : Fin 1) j)) ?_
  exact Finset.sum_congr rfl fun k _ => by rw [h0]

variable (V : (c : Dev nD) → (b : Ref sig .tc) → Buf (Elt Ideal) ((c : Thread nD τ).loc b))

/-- The printed index maps over the 25 points: the `adj` window and the output window move down one block per point,
    the other three windows stay at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The `adj` block at point `t` is rows `400 t …` of the array. -/
theorem read_adj (c : Dev nD) (t : Fin cfg1.N) (ht : t.val * 400 + 400 ≤ 10000) (p : Fin 400) (k : Fin 10000) :
    iblk1 V c 0 t (ix2 p k) = V c main_arg1 (ix2 (⟨t.val * 400 + p.val, by have := p.isLt; omega⟩ : Fin 10000) k) := by
  obtain ⟨e0, e1, -⟩ := idx_facts t
  show V c main_arg1 (((cfg1.win 0).blk t).view.emb (ix2 p k)) = _
  refine congrArg (V c main_arg1) ?_
  funext a; apply Fin.ext
  match a with
  | ⟨0, _⟩ => show win1_0.index t (0 : Fin 2) * 400 + 1 * p.val = t.val * 400 + p.val; omega
  | ⟨1, _⟩ => show win1_0.index t (1 : Fin 2) * 10000 + 1 * k.val = k.val; omega

/-- The other three input blocks are whole arrays. -/
theorem read_s (c : Dev nD) (t : Fin cfg1.N) : iblk1 V c 1 t = V c main_call0_v2 := by
  obtain ⟨-, -, e2, e3, -⟩ := idx_facts t
  funext y
  show V c main_call0_v2 (((cfg1.win 1).blk t).view.emb y) = _
  refine congrArg (V c main_call0_v2) ?_
  funext a; apply Fin.ext
  match a with
  | ⟨0, _⟩ => show win1_1.index t (0 : Fin 2) * 10000 + 1 * (y 0).val = (y 0).val; omega
  | ⟨1, _⟩ => show win1_1.index t (1 : Fin 2) * 16 + 1 * (y 1).val = (y 1).val; omega

theorem read_row (c : Dev nD) (t : Fin cfg1.N) : iblk1 V c 2 t = V c main_call0_v0 := by
  obtain ⟨-, -, -, -, e4, e5, -⟩ := idx_facts t
  funext y
  show V c main_call0_v0 (((cfg1.win 2).blk t).view.emb y) = _
  refine congrArg (V c main_call0_v0) ?_
  funext a; apply Fin.ext
  match a with
  | ⟨0, _⟩ => show win1_2.index t (0 : Fin 2) * 1 + 1 * (y 0).val = (y 0).val; omega
  | ⟨1, _⟩ => show win1_2.index t (1 : Fin 2) * 16 + 1 * (y 1).val = (y 1).val; omega

theorem read_w2 (c : Dev nD) (t : Fin cfg1.N) : iblk1 V c 3 t = V c main_arg4 := by
  obtain ⟨-, -, -, -, -, -, e6, e7, -⟩ := idx_facts t
  funext y
  show V c main_arg4 (((cfg1.win 3).blk t).view.emb y) = _
  refine congrArg (V c main_arg4) ?_
  funext a; apply Fin.ext
  match a with
  | ⟨0, _⟩ => show win1_3.index t (0 : Fin 2) * 16 + 1 * (y 0).val = (y 0).val; omega
  | ⟨1, _⟩ => show win1_3.index t (1 : Fin 2) * 8 + 1 * (y 1).val = (y 1).val; omega

/-- What point `t` writes back is its block of `hiddenProj` of the arrays as the launch finds them. -/
theorem flushed_eq (c : Dev nD) (t : Fin cfg1.N) :
    (dat1 V c).flushed 4 t = ((cfg1.win 4).blk t).view.read (Elt Ideal)
      (hiddenProj (V c main_arg1 : S10000x10000.Idx → EReal) (V c main_call0_v2 : S10000x16.Idx → EReal)
        (V c main_call0_v0 : S1x16.Idx → EReal) (V c main_arg4 : S16x8.Idx → EReal)) := by
  show (cfg1.win 4).cut (grid1.coords t) ((dat1 V c).after 4 t) = _
  rw [after1_4]
  unfold out1_4
  rw [View.canon_unit_zero origin]
  simp only [View.ld_unit_zero (S := S400x10000) origin, View.ld_unit_zero (S := S10000x16) origin,
    View.ld_unit_zero (S := S1x16) origin, View.ld_unit_zero (S := S16x8) origin]
  have hN : grid1.N = 25 := N_1
  have ht : t.val * 400 + 400 ≤ 10000 := by have : t.val < grid1.N := t.isLt; omega
  obtain ⟨-, -, -, -, -, -, -, -, e8, e9⟩ := idx_facts t
  funext j
  show k1_pay1 (F := Ideal) (iblk1 V c 0 t) (iblk1 V c 1 t) (iblk1 V c 2 t) (iblk1 V c 3 t) j
    = hiddenProj (V c main_arg1 : S10000x10000.Idx → EReal) (V c main_call0_v2 : S10000x16.Idx → EReal)
        (V c main_call0_v0 : S1x16.Idx → EReal) (V c main_arg4 : S16x8.Idx → EReal) (((cfg1.win 4).blk t).view.emb j)
  exact block_eq (V c main_arg1) (V c main_call0_v2) (V c main_call0_v0) (V c main_arg4)
    (iblk1 V c 0 t) (iblk1 V c 1 t) (iblk1 V c 2 t) (iblk1 V c 3 t) t.val ht
    (read_adj V c t ht) (read_s V c t) (read_row V c t) (read_w2 V c t) j (((cfg1.win 4).blk t).view.emb j)
    (by show win1_4.index t (0 : Fin 2) * 400 + 1 * (j 0).val = t.val * 400 + (j 0).val; omega)
    (by show win1_4.index t (1 : Fin 2) * 8 + 1 * (j 1).val = (j 1).val; omega)

/-- An index of the result array lies in point `t`'s block iff each coordinate lies in the block's range. -/
theorem mem_blk (t : Fin cfg1.N) (i : S10000x8.Idx) :
    i ∈ ((cfg1.win 4).blk t).view.set ↔ ∀ a : Fin 2, win1_4.index t a * S400x8.size a ≤ (i a).val
      ∧ (i a).val < win1_4.index t a * S400x8.size a + S400x8.size a := by
  show i ∈ ((View.whole main_call0_v3).slice (win1_4.rect t)).set ↔ _
  rw [View.set_slice_whole, Rect.mem_set_unit]
  exact Iff.rfl

/-- Row `r` of the result lies in the block of point `r / 400`. -/
theorem cover (i : S10000x8.Idx) :
    ∃ t : Fin cfg1.N, (cfg1.win 4).flush t = true ∧ i ∈ ((cfg1.win 4).blk t).view.set := by
  have hi0 : (i 0).val < 10000 := (i 0).isLt
  have hi1 : (i 1).val < 8 := (i 1).isLt
  have hN : grid1.N = 25 := N_1
  have hlt : (i 0).val / 400 < grid1.N := by omega
  obtain ⟨-, -, -, -, -, -, -, -, e8, e9⟩ := idx_facts ⟨(i 0).val / 400, hlt⟩
  have e8' : win1_4.index ⟨(i 0).val / 400, hlt⟩ (0 : Fin 2) = (i 0).val / 400 := e8
  refine ⟨⟨(i 0).val / 400, hlt⟩, flush1_4 _, ?_⟩
  rw [mem_blk]
  intro a
  match a with
  | ⟨0, _⟩ =>
    show win1_4.index ⟨(i 0).val / 400, hlt⟩ (0 : Fin 2) * 400 ≤ (i 0).val
      ∧ (i 0).val < win1_4.index ⟨(i 0).val / 400, hlt⟩ (0 : Fin 2) * 400 + 400
    omega
  | ⟨1, _⟩ =>
    show win1_4.index ⟨(i 0).val / 400, hlt⟩ (1 : Fin 2) * 8 ≤ (i 1).val
      ∧ (i 1).val < win1_4.index ⟨(i 0).val / 400, hlt⟩ (1 : Fin 2) * 8 + 8
    omega

/-- After the launch its result array is `relu (adj · s + row) · W2` of the arrays it was entered with. -/
theorem final (c : Dev nD) :
    (dat1 V c).arrAt 4 cfg1.N
      = hiddenProj (V c main_arg1 : S10000x10000.Idx → EReal) (V c main_call0_v2 : S10000x16.Idx → EReal)
          (V c main_call0_v0 : S1x16.Idx → EReal) (V c main_arg4 : S16x8.Idx → EReal) :=
  (dat1 V c).arrAt_eq_of_cover 4 _ (fun t _ => flushed_eq V c t) cover

end Cert.Gcn.Hidden

end
-- ==== Proof.Region2.lean ====
/-
  The third launch: the output layer, a block of 400 rows at a time.

  As in the second launch there are 25 grid points; at point `t` the body sees rows `400 t … 400 t + 399` of `adj`,
  the whole projected hidden layer `s` and the bias row, and writes rows `400 t … 400 t + 399` of `adj · s + row`. Row
  `r` of that array depends only on row `r` of `adj`; the 25 blocks tile the 10000 rows; so after the launch the
  result array is `affineRow adj s row`. Stated for arbitrary contents `V` of the buffers at the launch's entry.
-/
import Idealize.ShloMosaic.Lib.Pipeline.Value
import proofs.«127033_g25056839205778_cont_8to1_588_2_alg».proof.Proof.Gen.KernelIdeal.Frame
import proofs.«127033_g25056839205778_cont_8to1_588_2_alg».proof.Proof.Payloads

set_option maxRecDepth 16384

noncomputable section

namespace Cert.Gcn.Output

open Cert.KernelIdeal Cert.KernelIdeal.Gen Cert.Gcn
open Idealize.ShloMosaic Idealize.ShloMosaic.TcCoe Idealize.SL.Sem Idealize.ShloMosaic.ValueIdx Idealize.ShloMosaic.DenseLayer
open Idealize.ShloMosaic.Pipeline (Dat)

theorem origin : (![0, 0] : Fin 2 → Nat) = fun _ => 0 := funext fun a => by fin_cases a <;> rfl

/-- One block, over plain arrays: if `b0` is rows `400 r …` of `A` and the other two blocks are whole arrays, the
    body's value at `y` is `affineRow A S R` at the entry `400 r` rows further down. -/
theorem block_eq (A : S10000x10000.Idx → EReal) (S : S10000x8.Idx → EReal) (R : S1x8.Idx → EReal)
    (b0 : S400x10000.Idx → EReal) (b1 : S10000x8.Idx → EReal) (b2 : S1x8.Idx → EReal)
    (r : ℕ) (hr : r * 400 + 400 ≤ 10000)
    (h0 : ∀ (p : Fin 400) (k : Fin 10000), b0 (ix2 p k) = A (ix2 ⟨r * 400 + p.val, by have := p.isLt; omega⟩ k))
    (h1 : b1 = S) (h2 : b2 = R)
    (y : S400x8.Idx) (i : S10000x8.Idx) (hi0 : (i 0).val = r * 400 + (y 0).val) (hi1 : (i 1).val = (y 1).val) :
    k2_pay1 (F := Ideal) b0 b1 b2 y = affineRow A S R i := by
  subst h1 h2
  obtain ⟨p, q, rfl⟩ : ∃ (p : Fin 400) (q : Fin 8), y = ix2 p q := ⟨y 0, y 1, eq_ix2 y⟩
  have hi : i = ix2 (⟨r * 400 + p.val, by have := p.isLt; omega⟩ : Fin 10000) q := by
    funext a; apply Fin.ext
    match a with
    | ⟨0, _⟩ => exact hi0
    | ⟨1, _⟩ => exact hi1
  rw [hi, pay2_at, affineRow_apply, affineRow_apply]
  refine congrArg (· + b2 (ix2 (0 : Fin 1) q)) ?_
  exact Finset.sum_congr rfl fun k _ => by rw [h0]

variable (V : (c : Dev nD) → (b : Ref sig .tc) → Buf (Elt Ideal) ((c : Thread nD τ).loc b))

/-- The printed index maps over the 25 points: the `adj` window and the output window move down one block per point,
    the other two windows stay at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The `adj` block at point `t` is rows `400 t …` of the array. -/
theorem read_adj (c : Dev nD) (t : Fin cfg2.N) (ht : t.val * 400 + 400 ≤ 10000) (p : Fin 400) (k : Fin 10000) :
    iblk2 V c 0 t (ix2 p k) = V c main_arg1 (ix2 (⟨t.val * 400 + p.val, by have := p.isLt; omega⟩ : Fin 10000) k) := by
  obtain ⟨e0, e1, -⟩ := idx_facts t
  show V c main_arg1 (((cfg2.win 0).blk t).view.emb (ix2 p k)) = _
  refine congrArg (V c main_arg1) ?_
  funext a; apply Fin.ext
  match a with
  | ⟨0, _⟩ => show win2_0.index t (0 : Fin 2) * 400 + 1 * p.val = t.val * 400 + p.val; omega
  | ⟨1, _⟩ => show win2_0.index t (1 : Fin 2) * 10000 + 1 * k.val = k.val; omega

/-- The other two input blocks are whole arrays. -/
theorem read_s (c : Dev nD) (t : Fin cfg2.N) : iblk2 V c 1 t = V c main_call0_v3 := by
  obtain ⟨-, -, e2, e3, -⟩ := idx_facts t
  funext y
  show V c main_call0_v3 (((cfg2.win 1).blk t).view.emb y) = _
  refine congrArg (V c main_call0_v3) ?_
  funext a; apply Fin.ext
  match a with
  | ⟨0, _⟩ => show win2_1.index t (0 : Fin 2) * 10000 + 1 * (y 0).val = (y 0).val; omega
  | ⟨1, _⟩ => show win2_1.index t (1 : Fin 2) * 8 + 1 * (y 1).val = (y 1).val; omega

theorem read_row (c : Dev nD) (t : Fin cfg2.N) : iblk2 V c 2 t = V c main_call0_v1 := by
  obtain ⟨-, -, -, -, e4, e5, -⟩ := idx_facts t
  funext y
  show V c main_call0_v1 (((cfg2.win 2).blk t).view.emb y) = _
  refine congrArg (V c main_call0_v1) ?_
  funext a; apply Fin.ext
  match a with
  | ⟨0, _⟩ => show win2_2.index t (0 : Fin 2) * 1 + 1 * (y 0).val = (y 0).val; omega
  | ⟨1, _⟩ => show win2_2.index t (1 : Fin 2) * 8 + 1 * (y 1).val = (y 1).val; omega

/-- What point `t` writes back is its block of `affineRow` of the arrays as the launch finds them. -/
theorem flushed_eq (c : Dev nD) (t : Fin cfg2.N) :
    (dat2 V c).flushed 3 t = ((cfg2.win 3).blk t).view.read (Elt Ideal)
      (affineRow (V c main_arg1 : S10000x10000.Idx → EReal) (V c main_call0_v3 : S10000x8.Idx → EReal)
        (V c main_call0_v1 : S1x8.Idx → EReal)) := by
  show (cfg2.win 3).cut (grid2.coords t) ((dat2 V c).after 3 t) = _
  rw [after2_3]
  unfold out2_3
  rw [View.canon_unit_zero origin]
  simp only [View.ld_unit_zero (S := S400x10000) origin, View.ld_unit_zero (S := S10000x8) origin,
    View.ld_unit_zero (S := S1x8) origin]
  have hN : grid2.N = 25 := N_2
  have ht : t.val * 400 + 400 ≤ 10000 := by have : t.val < grid2.N := t.isLt; omega
  obtain ⟨-, -, -, -, -, -, e6, e7⟩ := idx_facts t
  funext j
  show k2_pay1 (F := Ideal) (iblk2 V c 0 t) (iblk2 V c 1 t) (iblk2 V c 2 t) j
    = affineRow (V c main_arg1 : S10000x10000.Idx → EReal) (V c main_call0_v3 : S10000x8.Idx → EReal)
        (V c main_call0_v1 : S1x8.Idx → EReal) (((cfg2.win 3).blk t).view.emb j)
  exact block_eq (V c main_arg1) (V c main_call0_v3) (V c main_call0_v1)
    (iblk2 V c 0 t) (iblk2 V c 1 t) (iblk2 V c 2 t) t.val ht
    (read_adj V c t ht) (read_s V c t) (read_row V c t) j (((cfg2.win 3).blk t).view.emb j)
    (by show win2_3.index t (0 : Fin 2) * 400 + 1 * (j 0).val = t.val * 400 + (j 0).val; omega)
    (by show win2_3.index t (1 : Fin 2) * 8 + 1 * (j 1).val = (j 1).val; omega)

/-- An index of the result array lies in point `t`'s block iff each coordinate lies in the block's range. -/
theorem mem_blk (t : Fin cfg2.N) (i : S10000x8.Idx) :
    i ∈ ((cfg2.win 3).blk t).view.set ↔ ∀ a : Fin 2, win2_3.index t a * S400x8.size a ≤ (i a).val
      ∧ (i a).val < win2_3.index t a * S400x8.size a + S400x8.size a := by
  show i ∈ ((View.whole main_v0).slice (win2_3.rect t)).set ↔ _
  rw [View.set_slice_whole, Rect.mem_set_unit]
  exact Iff.rfl

/-- Row `r` of the result lies in the block of point `r / 400`. -/
theorem cover (i : S10000x8.Idx) :
    ∃ t : Fin cfg2.N, (cfg2.win 3).flush t = true ∧ i ∈ ((cfg2.win 3).blk t).view.set := by
  have hi0 : (i 0).val < 10000 := (i 0).isLt
  have hi1 : (i 1).val < 8 := (i 1).isLt
  have hN : grid2.N = 25 := N_2
  have hlt : (i 0).val / 400 < grid2.N := by omega
  obtain ⟨-, -, -, -, -, -, e6, e7⟩ := idx_facts ⟨(i 0).val / 400, hlt⟩
  have e6' : win2_3.index ⟨(i 0).val / 400, hlt⟩ (0 : Fin 2) = (i 0).val / 400 := e6
  refine ⟨⟨(i 0).val / 400, hlt⟩, flush2_3 _, ?_⟩
  rw [mem_blk]
  intro a
  match a with
  | ⟨0, _⟩ =>
    show win2_3.index ⟨(i 0).val / 400, hlt⟩ (0 : Fin 2) * 400 ≤ (i 0).val
      ∧ (i 0).val < win2_3.index ⟨(i 0).val / 400, hlt⟩ (0 : Fin 2) * 400 + 400
    omega
  | ⟨1, _⟩ =>
    show win2_3.index ⟨(i 0).val / 400, hlt⟩ (1 : Fin 2) * 8 ≤ (i 1).val
      ∧ (i 1).val < win2_3.index ⟨(i 0).val / 400, hlt⟩ (1 : Fin 2) * 8 + 8
    omega

/-- After the launch its result array is `adj · s + row` of the arrays it was entered with. -/
theorem final (c : Dev nD) :
    (dat2 V c).arrAt 3 cfg2.N
      = affineRow (V c main_arg1 : S10000x10000.Idx → EReal) (V c main_call0_v3 : S10000x8.Idx → EReal)
          (V c main_call0_v1 : S1x8.Idx → EReal) :=
  (dat2 V c).arrAt_eq_of_cover 3 _ (fun t _ => flushed_eq V c t) cover

end Cert.Gcn.Output

end
-- ==== Proof.KernelValue.lean ====
/-
  The idealized kernel computes the two-layer network.

  The run's buffer contents are followed boundary by boundary. The two host reshapes lay `b1` and `b2` out as rows and
  touch nothing else. The first launch writes `x · W1` into its result array and leaves every other array alone; the
  second reads that array, `adj`, the `b1` row and `W2` and writes `relu (adj · (x · W1) + b1) · W2`; the third reads
  that array, `adj` and the `b2` row and writes the result. An array a launch only reads comes out as it went in, and
  an array it does not touch keeps its contents, so each launch's inputs walk back to the launch memory, and the final
  result array is `gcn` of the six argument arrays as launched.
-/
import Idealize.ShloMosaic.Lib.StableHlo.Run
import Idealize.ShloMosaic.Lib.ValueLayout
import proofs.«127033_g25056839205778_cont_8to1_588_2_alg».proof.Proof.KernelRun
import proofs.«127033_g25056839205778_cont_8to1_588_2_alg».proof.Proof.Region0
import proofs.«127033_g25056839205778_cont_8to1_588_2_alg».proof.Proof.Region1
import proofs.«127033_g25056839205778_cont_8to1_588_2_alg».proof.Proof.Region2

set_option maxRecDepth 16384

noncomputable section

namespace Cert.Gcn.Kernel

open Cert.KernelIdeal Cert.KernelIdeal.Gen Cert.Gcn
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- A vector reshaped to one row is the vector laid out as a row. -/
theorem shapeCast_eq_rowOf {N : ℕ} (b : (⟨1, ![N]⟩ : Shape).Idx → EReal)
    (h : (⟨1, ![N]⟩ : Shape).ShapeCasts ⟨2, ![1, N]⟩) : shapeCast ⟨2, ![1, N]⟩ b h = rowOf b := by
  funext i
  obtain ⟨u, j, rfl⟩ : ∃ (u : Fin 1) (j : Fin N), i = ix2 u j := ⟨i 0, i 1, eq_ix2 i⟩
  rw [shapeCast_a_1a_apply]
  rfl

/-! ## After the reshapes -/

theorem V1_x (c : Dev nD) : V1 m ρ c main_arg0 = m ((c : Thread nD τ).loc main_arg0) := by
  show W1 m ρ c (Proc.devRef .tc main_arg0) = _
  dsimp only [W1, hostOps0]; after_results; try rfl
theorem V1_adj (c : Dev nD) : V1 m ρ c main_arg1 = m ((c : Thread nD τ).loc main_arg1) := by
  show W1 m ρ c (Proc.devRef .tc main_arg1) = _
  dsimp only [W1, hostOps0]; after_results; try rfl
theorem V1_w1 (c : Dev nD) : V1 m ρ c main_arg2 = m ((c : Thread nD τ).loc main_arg2) := by
  show W1 m ρ c (Proc.devRef .tc main_arg2) = _
  dsimp only [W1, hostOps0]; after_results; try rfl
theorem V1_w2 (c : Dev nD) : V1 m ρ c main_arg4 = m ((c : Thread nD τ).loc main_arg4) := by
  show W1 m ρ c (Proc.devRef .tc main_arg4) = _
  dsimp only [W1, hostOps0]; after_results; try rfl
theorem V1_row1 (c : Dev nD) :
    V1 m ρ c main_call0_v0 = rowOf (m ((c : Thread nD τ).loc main_arg3) : S16.Idx → EReal) := by
  rw [← shapeCast_eq_rowOf _ shapeCasts_S16_S1x16]
  show W1 m ρ c (Proc.devRef .tc main_call0_v0) = _
  dsimp only [W1, hostOps0]; after_results; rfl
theorem V1_row2 (c : Dev nD) :
    V1 m ρ c main_call0_v1 = rowOf (m ((c : Thread nD τ).loc main_arg5) : S8.Idx → EReal) := by
  rw [← shapeCast_eq_rowOf _ shapeCasts_S8_S1x8]
  show W1 m ρ c (Proc.devRef .tc main_call0_v1) = _
  dsimp only [W1, hostOps0]; after_results; rfl

/-! ## After the first launch -/

theorem V2_adj (c : Dev nD) : V2 m ρ c main_arg1 = m ((c : Thread nD τ).loc main_arg1) :=
  (W2_of_ne m ρ c main_arg1 (by decide)).trans (V1_adj m ρ c)
theorem V2_w2 (c : Dev nD) : V2 m ρ c main_arg4 = m ((c : Thread nD τ).loc main_arg4) :=
  (W2_of_ne m ρ c main_arg4 (by decide)).trans (V1_w2 m ρ c)
theorem V2_row1 (c : Dev nD) :
    V2 m ρ c main_call0_v0 = rowOf (m ((c : Thread nD τ).loc main_arg3) : S16.Idx → EReal) :=
  (W2_of_ne m ρ c main_call0_v0 (by decide)).trans (V1_row1 m ρ c)
theorem V2_row2 (c : Dev nD) :
    V2 m ρ c main_call0_v1 = rowOf (m ((c : Thread nD τ).loc main_arg5) : S8.Idx → EReal) :=
  (W2_of_ne m ρ c main_call0_v1 (by decide)).trans (V1_row2 m ρ c)
/-- The first product. -/
theorem V2_features (c : Dev nD) :
    V2 m ρ c main_call0_v2 = prod (m ((c : Thread nD τ).loc main_arg0) : S10000x128.Idx → EReal)
      (m ((c : Thread nD τ).loc main_arg2) : S128x16.Idx → EReal) :=
  (W2_arr m ρ c 2).trans ((Features.final (V1 m ρ) c).trans (by rw [V1_x, V1_w1]))

/-! ## After the second launch -/

theorem V3_adj (c : Dev nD) : V3 m ρ c main_arg1 = m ((c : Thread nD τ).loc main_arg1) :=
  (W3_arr m ρ c 0).trans (((dat1 (V2 m ρ) c).arrAt_in 0 rfl _).trans ((A_eq1 (V2 m ρ) c 0).trans (V2_adj m ρ c)))
theorem V3_row2 (c : Dev nD) :
    V3 m ρ c main_call0_v1 = rowOf (m ((c : Thread nD τ).loc main_arg5) : S8.Idx → EReal) :=
  (W3_of_ne m ρ c main_call0_v1 (by decide)).trans (V2_row2 m ρ c)
/-- The hidden layer, projected. -/
theorem V3_hidden (c : Dev nD) :
    V3 m ρ c main_call0_v3 = hiddenProj (m ((c : Thread nD τ).loc main_arg1) : S10000x10000.Idx → EReal)
      (prod (m ((c : Thread nD τ).loc main_arg0) : S10000x128.Idx → EReal) (m ((c : Thread nD τ).loc main_arg2) : S128x16.Idx → EReal))
      (rowOf (m ((c : Thread nD τ).loc main_arg3) : S16.Idx → EReal)) (m ((c : Thread nD τ).loc main_arg4) : S16x8.Idx → EReal) :=
  (W3_arr m ρ c 4).trans ((Hidden.final (V2 m ρ) c).trans (by rw [V2_adj, V2_features, V2_row1, V2_w2]))

/-! ## After the third launch -/

/-- The result array after the run is the network of the argument arrays as launched. -/
theorem value (c : Dev nD) :
    W4 m ρ c (Proc.devRef .tc main_v0) = gcn (m ((c : Thread nD τ).loc main_arg0) : S10000x128.Idx → EReal)
      (m ((c : Thread nD τ).loc main_arg1) : S10000x10000.Idx → EReal) (m ((c : Thread nD τ).loc main_arg2) : S128x16.Idx → EReal)
      (m ((c : Thread nD τ).loc main_arg3) : S16.Idx → EReal) (m ((c : Thread nD τ).loc main_arg4) : S16x8.Idx → EReal)
      (m ((c : Thread nD τ).loc main_arg5) : S8.Idx → EReal) :=
  (W4_arr m ρ c 3).trans ((Output.final (V3 m ρ) c).trans (by rw [V3_adj, V3_hidden, V3_row2]; rfl))

/-- The idealized kernel's run: every weakly fair execution terminates, nothing faulting, with the result array at
    the network of the arguments and the arguments as launched. -/
theorem run : θ_run defs (onTc (τ := τ) (main (F := Ideal))) ⟨m, fun _ => 0, ρ⟩ (fun r => ∀ c : Dev nD,
      r.2.mem ((c.tc : Thread nD τ).loc main_v0) = gcn (m ((c : Thread nD τ).loc main_arg0) : S10000x128.Idx → EReal)
        (m ((c : Thread nD τ).loc main_arg1) : S10000x10000.Idx → EReal) (m ((c : Thread nD τ).loc main_arg2) : S128x16.Idx → EReal)
        (m ((c : Thread nD τ).loc main_arg3) : S16.Idx → EReal) (m ((c : Thread nD τ).loc main_arg4) : S16x8.Idx → EReal)
        (m ((c : Thread nD τ).loc main_arg5) : S8.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(Cert.KernelIdeal.Named.result_at m ρ r h c).trans (value m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩)
    (Cert.KernelIdeal.Named.run_all m ρ)

end Cert.Gcn.Kernel

end
-- ==== Proof.RefValue.lean ====
/-
  The reference program computes the two-layer network.

  Its thirteen host operations are four matrix products, two bias vectors each broadcast to a row and then over the
  rows, two additions, and a maximum with the broadcast constant zero. Read at an entry `(p, q)`: a product is the sum
  over the contracted coordinate `k` of the left operand at `(p, k)` times the right operand at `(k, q)`; a broadcast
  bias is the vector at `q`; the broadcast constant is the zero word. So stage by stage the reference is `prod`,
  `affineRow`, `hiddenProj` and again `affineRow` of the argument arrays: the function `gcn`.
-/
import Idealize.ShloMosaic.Lib.ValueIdx
import Idealize.ShloMosaic.Lib.Pipeline.Value
import proofs.«127033_g25056839205778_cont_8to1_588_2_alg».proof.Proof.Gen.ReferenceIdeal.Read
import proofs.«127033_g25056839205778_cont_8to1_588_2_alg».proof.Proof.Spec

noncomputable section

namespace Cert.Gcn.Reference

open Cert.ReferenceIdeal Cert.ReferenceIdeal.Gen Cert.ReferenceIdeal.Read
open Idealize.ShloMosaic Idealize.ShloMosaic.ValueIdx Idealize.ShloMosaic.DenseLayer Cert.Gcn

/-! ## The operands' indices at an entry -/

theorem lidx0 (p : Fin 10000) (q : Fin 16) (k : Fin 128) : lidx_main_v0 (ix2 p q) k = ix2 p k :=
  funext fun a => Fin.ext (by match a with | ⟨0, _⟩ => rfl | ⟨1, _⟩ => rfl)
theorem ridx0 (p : Fin 10000) (q : Fin 16) (k : Fin 128) : ridx_main_v0 (ix2 p q) k = ix2 k q :=
  funext fun a => Fin.ext (by match a with | ⟨0, _⟩ => rfl | ⟨1, _⟩ => rfl)
theorem lidx1 (p : Fin 10000) (q : Fin 16) (k : Fin 10000) : lidx_main_v1 (ix2 p q) k = ix2 p k :=
  funext fun a => Fin.ext (by match a with | ⟨0, _⟩ => rfl | ⟨1, _⟩ => rfl)
theorem ridx1 (p : Fin 10000) (q : Fin 16) (k : Fin 10000) : ridx_main_v1 (ix2 p q) k = ix2 k q :=
  funext fun a => Fin.ext (by match a with | ⟨0, _⟩ => rfl | ⟨1, _⟩ => rfl)
theorem lidx7 (p : Fin 10000) (q : Fin 8) (k : Fin 16) : lidx_main_v7 (ix2 p q) k = ix2 p k :=
  funext fun a => Fin.ext (by match a with | ⟨0, _⟩ => rfl | ⟨1, _⟩ => rfl)
theorem ridx7 (p : Fin 10000) (q : Fin 8) (k : Fin 16) : ridx_main_v7 (ix2 p q) k = ix2 k q :=
  funext fun a => Fin.ext (by match a with | ⟨0, _⟩ => rfl | ⟨1, _⟩ => rfl)
theorem lidx8 (p : Fin 10000) (q : Fin 8) (k : Fin 10000) : lidx_main_v8 (ix2 p q) k = ix2 p k :=
  funext fun a => Fin.ext (by match a with | ⟨0, _⟩ => rfl | ⟨1, _⟩ => rfl)
theorem ridx8 (p : Fin 10000) (q : Fin 8) (k : Fin 10000) : ridx_main_v8 (ix2 p q) k = ix2 k q :=
  funext fun a => Fin.ext (by match a with | ⟨0, _⟩ => rfl | ⟨1, _⟩ => rfl)
theorem idx32 (p : Fin 10000) (q : Fin 16) : idx_main_v2 (idx_main_v3 (ix2 p q)) = ix1 q :=
  funext fun a => Fin.ext (by match a with | ⟨0, _⟩ => rfl)
theorem idx109 (p : Fin 10000) (q : Fin 8) : idx_main_v9 (idx_main_v10 (ix2 p q)) = ix1 q :=
  funext fun a => Fin.ext (by match a with | ⟨0, _⟩ => rfl)

/-! ## The stages -/

variable (x0 : S10000x128.Idx → EReal) (x1 : S10000x10000.Idx → EReal) (x2 : S128x16.Idx → EReal)
  (x3 : S16.Idx → EReal) (x4 : S16x8.Idx → EReal) (x5 : S8.Idx → EReal)

/-- `x · W1`. -/
theorem stage_xw : val_main_v0 (F := Ideal) x0 x2 = prod x0 x2 := by
  funext i
  obtain ⟨p, q, rfl⟩ : ∃ (p : Fin 10000) (q : Fin 16), i = ix2 p q := ⟨i 0, i 1, eq_ix2 i⟩
  rw [val_main_v0_apply]
  simp only [lidx0, ridx0]
  rfl

/-- `adj · (x · W1) + b1`, before the maximum with zero. -/
theorem stage_pre : val_main_v4 (F := Ideal) x0 x1 x2 x3 = affineRow x1 (prod x0 x2) (rowOf x3) := by
  funext i
  obtain ⟨p, q, rfl⟩ : ∃ (p : Fin 10000) (q : Fin 16), i = ix2 p q := ⟨i 0, i 1, eq_ix2 i⟩
  rw [val_main_v4_apply, val_main_v1_apply, val_main_v3_apply, val_main_v2_apply, stage_xw]
  simp only [lidx1, ridx1, idx32]
  rfl

/-- The broadcast constant is the zero word at every entry. -/
theorem stage_zero (i : S10000x16.Idx) : val_main_v5 (F := Ideal) i = zeroWord := by
  rw [val_main_v5_apply, val_main_cst_apply]
  rfl

/-- `relu (adj · (x · W1) + b1) · W2`. -/
theorem stage_hidden : val_main_v7 (F := Ideal) x0 x1 x2 x3 x4 = hiddenProj x1 (prod x0 x2) (rowOf x3) x4 := by
  funext i
  obtain ⟨p, q, rfl⟩ : ∃ (p : Fin 10000) (q : Fin 8), i = ix2 p q := ⟨i 0, i 1, eq_ix2 i⟩
  rw [val_main_v7_apply]
  refine Finset.sum_congr rfl fun j _ => ?_
  rw [lidx7, ridx7, val_main_v6_apply, stage_zero, stage_pre]
  rfl

/-- The whole reference: `adj · (relu (adj · (x · W1) + b1) · W2) + b2`. -/
theorem reference_eq : val_main_v11 (F := Ideal) x0 x1 x2 x3 x4 x5 = gcn x0 x1 x2 x3 x4 x5 := by
  funext i
  obtain ⟨p, q, rfl⟩ : ∃ (p : Fin 10000) (q : Fin 8), i = ix2 p q := ⟨i 0, i 1, eq_ix2 i⟩
  rw [val_main_v11_apply, val_main_v8_apply, val_main_v10_apply, val_main_v9_apply, stage_hidden]
  simp only [lidx8, ridx8, idx109]
  rfl

end Cert.Gcn.Reference

end
-- ==== Proof.lean ====
/-
  A two-layer graph convolution, `out = adj · (relu (adj · (x · W1) + b1) · W2) + b2`, computed by three kernel
  launches against the same formula written as plain array operations.

  The kernel forms `x · W1` in one piece, then streams `adj` through in 25 blocks of 400 rows twice: the first pass
  writes `relu (adj · (x · W1) + b1) · W2` block by block, the second `adj · (that) + b2`. Read at the ideal values —
  a float an extended real, every operation the exact one — a product into a zero accumulator is the plain sum over
  the contracted coordinate, and a row of either pass depends only on the same row of `adj`; so each pass's blocks are
  the blocks of one whole array, and the result is the function `Cert.Gcn.gcn` of the six arguments
  (`Cert.Gcn.Kernel.run`). The reference's thirteen host operations are the same function stage by stage
  (`Cert.Gcn.Reference.reference_eq`). The two sides perform the same additions and multiplications in the same
  grouping; only the order and blocking of the sums differ, which addition of extended reals does not see. No step
  distributes a product over a sum, so the proof never uses that the inputs are finite.

  The three frames are the generated ones (the reference's is its generated run with the result dropped); the
  idealization rewrote no operation, so `preserves` is `True`.
-/
import proofs.«127033_g25056839205778_cont_8to1_588_2_alg».proof.Defs
import proofs.«127033_g25056839205778_cont_8to1_588_2_alg».proof.Proof.Gen.Kernel
import proofs.«127033_g25056839205778_cont_8to1_588_2_alg».proof.Proof.Gen.Kernel.Frame
import proofs.«127033_g25056839205778_cont_8to1_588_2_alg».proof.Proof.Gen.KernelIdeal
import proofs.«127033_g25056839205778_cont_8to1_588_2_alg».proof.Proof.Gen.KernelIdeal.Frame
import proofs.«127033_g25056839205778_cont_8to1_588_2_alg».proof.Proof.Gen.ReferenceIdeal
import proofs.«127033_g25056839205778_cont_8to1_588_2_alg».proof.Proof.Gen.ReferenceIdeal.Run
import proofs.«127033_g25056839205778_cont_8to1_588_2_alg».proof.Proof.Gen.ReferenceIdeal.Read
import proofs.«127033_g25056839205778_cont_8to1_588_2_alg».proof.Proof.Gen.Pre_finite_inputs
import proofs.«127033_g25056839205778_cont_8to1_588_2_alg».proof.Proof.KernelValue
import proofs.«127033_g25056839205778_cont_8to1_588_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `gcn` of the (agreeing) arguments. -/
theorem algebraic : Cert.algebraic_KernelIdeal_ReferenceIdeal := by
  intro m ρ m' ρ' _ hagree
  refine ⟨_, Cert.Gcn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.Gcn.Reference.reference_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
